-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4096x512 : Shape := ⟨2, ![4096, 512]⟩
abbrev S4096x128 : Shape := ⟨2, ![4096, 128]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16384x512 .f32) (main_arg1 : FVec F S4096x512 .f32) (main_arg2 : FVec F S4096x128 .f32) (main_arg3 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16384x512 : Shape := ⟨2, ![16384, 512]⟩
abbrev S4096x512 : Shape := ⟨2, ![4096, 512]⟩
abbrev S4096x128 : Shape := ⟨2, ![4096, 128]⟩
abbrev S128 : Shape := ⟨1, ![128]⟩
abbrev S16384x128 : Shape := ⟨2, ![16384, 128]⟩
abbrev S1024x512 : Shape := ⟨2, ![1024, 512]⟩
abbrev S512x512 : Shape := ⟨2, ![512, 512]⟩
abbrev S512x128 : Shape := ⟨2, ![512, 128]⟩
abbrev S1024x128 : Shape := ⟨2, ![1024, 128]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S1x128 : Shape := ⟨2, ![1, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S4096x128, .f32⟩
  | .hbm, ⟨3, _⟩ => ⟨S128, .f32⟩
  | .hbm, ⟨4, _⟩ => ⟨S16384x128, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_15 : BitVec 32 := 0#32
  let v35 : BitVec 1 := Scalar.cmpi .ne v34 c0_i32_15
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  reduces_S1024x512_S1024 : S1024x512.Reduces [1] S1024
  shapeCasts_S1024_S1024x1 : S1024.ShapeCasts S1024x1
  reduces_S512x512_S512 : S512x512.Reduces [1] S512
  bitsLt_bf16_f32 : FTy.bits .bf16 < FTy.bits .f32
  transposes_S512x512_p1_0_S512x512 : S512x512.Transposes [1, 0] S512x512
  shapeCasts_S512_S1x512 : S512.ShapeCasts S1x512
  broadcasts_S1024x1_S1024x512 : S1024x1.Broadcasts S1024x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S4096x512 : Shape := ⟨2, ![4096, 512]⟩
abbrev S4096x128 : Shape := ⟨2, ![4096, 128]⟩
abbrev S128 : Shape := ⟨1, ![128]⟩
abbrev S_ : Shape := ⟨0, ![]⟩
abbrev S16384 : Shape := ⟨1, ![16384]⟩
abbrev S16384x1 : Shape := ⟨2, ![16384, 1]⟩
abbrev S4096 : Shape := ⟨1, ![4096]⟩
abbrev S512x4096 : Shape := ⟨2, ![512, 4096]⟩
abbrev S16384x4096 : Shape := ⟨2, ![16384, 4096]⟩
abbrev S1x4096 : Shape := ⟨2, ![1, 4096]⟩
abbrev S16384x128 : Shape := ⟨2, ![16384, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4096x512, .f32⟩
  | .hbm, ⟨2, _⟩ => ⟨S4096x128, .f32⟩
  | .hbm, ⟨3, _⟩ => ⟨S128, .f32⟩
  | .hbm, ⟨4, _⟩ => ⟨S16384x512, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S4096x512, .f32⟩
  | .hbm, ⟨9, _⟩ => ⟨S_, .f32⟩
  | .hbm, ⟨10, _⟩ => ⟨S4096, .f32⟩
  | .hbm, ⟨11, _⟩ => ⟨S512x4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x128, .f32⟩
  | .hbm, ⟨26, _⟩ => ⟨S1x128, .f32⟩
  | .hbm, ⟨27, _⟩ => ⟨S16384x128, .f32⟩
  | .hbm, ⟨28, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  transposes_S4096x512_S512x4096_1_0 : S4096x512.Transposes [1, 0] S512x4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x512_S512x4096_S16384x4096_1_0_0_1_n_n_wf : DotDims.WF S16384x512 S512x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.PointLeaves.lean ====
/-
  What one grid point leaves behind, as values. The kernel walks a 16 × 8 grid: along the second axis it visits the
  eight 512-row tiles of the centers for one 1024-row tile of x, carrying a [1024,128] accumulator between the visits.
  Three kinds of point occur. At the first tile of a row block the accumulator is zeroed and the tile's contribution
  added to it; at a middle tile the contribution is added to what the previous point left; at the last tile the same
  addition is followed by the store of "accumulator + bias" into the output block. Each of these is one (or two)
  whole-buffer stores, so what a buffer holds afterwards is the last store's payload, and a whole-buffer load of what a
  whole-buffer store wrote is that store's payload. Hence:
    first tile : accumulator = step x c w 0            (step = the body's accumulation payload, zero = the zero splat)
    middle tile: accumulator = step x c w acc
    last tile  : accumulator = step x c w acc,  output block = (step x c w acc) + bias
  for any float instance.
-/
import proofs.«109335_j14542759264629_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem

namespace Cert.KernelIdeal.PointLeaves
open Cert.KernelIdeal Cert.KernelIdeal.Gen
variable {F : FTy → Type} [FloatOps F]

/-- The offsets of a whole-buffer access of a rank-2 buffer are zero; -/
theorem off2 : (![0, 0] : Fin 2 → Nat) = fun _ => 0 := funext fun a => by fin_cases a <;> rfl
/-- and of a rank-1 buffer. -/
theorem off1 : (![0] : Fin 1 → Nat) = fun _ => 0 := funext fun a => by fin_cases a; rfl

/-- FIRST TILE of a row block: the accumulator is zeroed, read back, and the tile's contribution added. -/
theorem acc_first (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : cond0_0 i) (hc1 : ¬cond0_1 i) (x0 : Vec F S1024x512 .f32) (x1 : Vec F S512x512 .f32) (x2 : Vec F S512x128 .f32) (x3 : Vec F S128 .f32) :
    sout0_A_0 c i arg2 harg2 arg3 harg3 arg4 harg4 arg5 harg5 arg6 harg6 arg7 harg7 hc0 hc1 x0 x1 x2 x3 = k0_pay3 x0 x1 x2 k0_pay2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x128) off2, View.readCov_unit_zero (S := S1024x128) _ off2]
  simp only [View.readAt_eq_ld, harg2.read_unread, harg3.read_unread, harg4.read_unread,
    View.ld_unit_zero (S := S1024x512) off2, View.ld_unit_zero (S := S512x512) off2, View.ld_unit_zero (S := S512x128) off2]

/-- MIDDLE TILE: the tile's contribution is added to what the previous point left in the accumulator. -/
theorem acc_middle (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : ¬cond0_1 i) (x0 : Vec F S1024x512 .f32) (x1 : Vec F S512x512 .f32) (x2 : Vec F S512x128 .f32) (x3 : Vec F S128 .f32) (acc : Vec F S1024x128 .f32) :
    sout0_B_0 c i arg2 harg2 arg3 harg3 arg4 harg4 arg5 harg5 arg6 harg6 arg7 harg7 hc0 hc1 x0 x1 x2 x3 acc = k0_pay3 x0 x1 x2 acc := by
  unfold sout0_B_0
  rw [View.read_writes_eq_canon _ _ _ (scover0_B_0 c i arg2 harg2 arg3 harg3 arg4 harg4 arg5 harg5 arg6 harg6 arg7 harg7 hc0 hc1 x0 x1 x2 x3 acc)]
  unfold kernelRun0_B
  dsimp only
  rw [View.canon_unit_zero off2]
  simp only [View.readAt_eq_ld, harg2.read_unread, harg3.read_unread, harg4.read_unread, harg7.read_unread,
    View.ld_unit_zero (S := S1024x512) off2, View.ld_unit_zero (S := S512x512) off2, View.ld_unit_zero (S := S512x128) off2,
    View.ld_unit_zero (S := S1024x128) off2]

/-- LAST TILE, the accumulator: the same addition. -/
theorem acc_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x512 .f32) (x1 : Vec F S512x512 .f32) (x2 : Vec F S512x128 .f32) (x3 : Vec F S128 .f32) (acc : Vec F S1024x128 .f32) :
    sout0_C_0 c i arg2 harg2 arg3 harg3 arg4 harg4 arg5 harg5 arg6 harg6 arg7 harg7 hc0 hc1 x0 x1 x2 x3 acc = k0_pay3 x0 x1 x2 acc := by
  unfold sout0_C_0
  rw [View.read_writes_eq_canon _ _ _ (scover0_C_0 c i arg2 harg2 arg3 harg3 arg4 harg4 arg5 harg5 arg6 harg6 arg7 harg7 hc0 hc1 x0 x1 x2 x3 acc)]
  unfold kernelRun0_C
  dsimp only
  sl_unfold_words
  rw [View.canon_unit_zero off2]
  simp only [View.readAt_eq_ld, harg2.read_unread, harg3.read_unread, harg4.read_unread, harg7.read_unread,
    View.ld_unit_zero (S := S1024x512) off2, View.ld_unit_zero (S := S512x512) off2, View.ld_unit_zero (S := S512x128) off2,
    View.ld_unit_zero (S := S1024x128) off2]

/-- LAST TILE, the output block: the finished accumulator, read back, plus the bias row. -/
theorem out_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S128 .f32) (harg5 : arg5.IsWhole) (arg6 : Memref sig .tc .vmem S1024x128 .f32) (harg6 : arg6.IsWhole) (arg7 : Memref sig .tc .vmem S1024x128 .f32) (harg7 : arg7.IsWhole) (hc0 : ¬cond0_0 i) (hc1 : cond0_1 i) (x0 : Vec F S1024x512 .f32) (x1 : Vec F S512x512 .f32) (x2 : Vec F S512x128 .f32) (x3 : Vec F S128 .f32) (acc : Vec F S1024x128 .f32) :
    out0_C_4 c i arg2 harg2 arg3 harg3 arg4 harg4 arg5 harg5 arg6 harg6 arg7 harg7 hc0 hc1 x0 x1 x2 x3 acc = k0_pay1 (k0_pay3 x0 x1 x2 acc) x3 := by
  unfold out0_C_4
  rw [View.read_writes_eq_canon _ _ _ (cover0_C_4 c i arg2 harg2 arg3 harg3 arg4 harg4 arg5 harg5 arg6 harg6 arg7 harg7 hc0 hc1 x0 x1 x2 x3 acc)]
  unfold kernelRun0_C
  dsimp only
  sl_unfold_words
  rw [View.canon_unit_zero (S := S1024x128) off2, View.readCov_unit_zero (S := S1024x128) _ off2]
  simp only [View.readAt_eq_ld, harg2.read_unread, harg3.read_unread, harg4.read_unread, harg5.read_unread, harg7.read_unread,
    View.ld_unit_zero (S := S1024x512) off2, View.ld_unit_zero (S := S512x512) off2, View.ld_unit_zero (S := S512x128) off2,
    View.ld_unit_zero (S := S1024x128) off2, View.ld_unit_zero (S := S128) off1]

end Cert.KernelIdeal.PointLeaves
end
-- ==== Proof.RbfSpec.lean ====
/-
  The function both programs compute, on the extended reals.

  For rows x_i (i < 16384) and centers c_j (j < 4096) in dimension 512, weights W [4096,128] and a bias b [128]:

      out[i, o] = ( Σ_j  exp( β · ( (‖x_i‖² + ‖c_j‖²) − 2 · ⟨x_i, c_j⟩ ) ) · W[j, o] ) + b[o]

  with β the f32 word of −0.35 and 2 the f32 word of 2.0, each read as the extended real it denotes, ‖·‖² and ⟨·,·⟩ plain
  sums of products over the 512 coordinates. The pieces are stated for arrays of any number of rows, because the kernel
  evaluates the same expression on a 1024-row tile of x against a 512-row tile of the centers.

  The only law needed to join a tiled evaluation to the whole one is that a sum over 4096 = 8 · 512 indices is the sum, over
  the 8 tiles, of the sums over each tile's 512 indices (commutativity and associativity of + on the extended reals; no
  finiteness is involved).
-/
import Idealize.ShloMosaic.PureOps.Ideal
import Idealize.ShloMosaic.Lib.ValueIdx

noncomputable section

open scoped BigOperators

namespace Cert.Rbf

open Idealize.ShloMosaic Idealize.ShloMosaic.ValueIdx

/-- The scale of the exponent, the f32 word of −0.35 as the extended real it denotes. -/
abbrev beta : EReal := Ideal.ofBits .f32 0xBEB33333#32
/-- The f32 word of 2.0. -/
abbrev two : EReal := Ideal.ofBits .f32 0x40000000#32

/-- ‖a_i‖²: the sum of the squares of row i. -/
def sqNorm {n : ℕ} (a : (⟨2, ![n, 512]⟩ : Shape).Idx → EReal) (i : Fin n) : EReal :=
  ∑ d : Fin 512, a (ix2 i d) * a (ix2 i d)

/-- ⟨a_i, b_j⟩: the inner product of row i of a with row j of b. -/
def inner {n k : ℕ} (a : (⟨2, ![n, 512]⟩ : Shape).Idx → EReal) (b : (⟨2, ![k, 512]⟩ : Shape).Idx → EReal)
    (i : Fin n) (j : Fin k) : EReal :=
  ∑ d : Fin 512, a (ix2 i d) * b (ix2 j d)

/-- The radial kernel of row i of a against row j of b: exp(β · ((‖a_i‖² + ‖b_j‖²) − 2 · ⟨a_i, b_j⟩)). -/
def kern {n k : ℕ} (a : (⟨2, ![n, 512]⟩ : Shape).Idx → EReal) (b : (⟨2, ![k, 512]⟩ : Shape).Idx → EReal)
    (i : Fin n) (j : Fin k) : EReal :=
  Ideal.exp (beta * ((sqNorm a i + sqNorm b j) - two * inner a b i j))

/-- Σ_j kern(a_i, b_j) · w[j, o] over all k rows of b: the dense layer's sum, before the bias. -/
def mix {n k : ℕ} (a : (⟨2, ![n, 512]⟩ : Shape).Idx → EReal) (b : (⟨2, ![k, 512]⟩ : Shape).Idx → EReal)
    (w : (⟨2, ![k, 128]⟩ : Shape).Idx → EReal) (i : Fin n) (o : Fin 128) : EReal :=
  ∑ j : Fin k, kern a b i j * w (ix2 j o)

/-- The whole result: mix over all 4096 centers, plus the bias. -/
def out (x : (⟨2, ![16384, 512]⟩ : Shape).Idx → EReal) (cen : (⟨2, ![4096, 512]⟩ : Shape).Idx → EReal)
    (w : (⟨2, ![4096, 128]⟩ : Shape).Idx → EReal) (bias : (⟨1, ![128]⟩ : Shape).Idx → EReal) :
    (⟨2, ![16384, 128]⟩ : Shape).Idx → EReal :=
  fun j => mix x cen w (j 0) (j 1) + bias (ix1 (j 1))

/-- The kernel value depends only on the two rows: rows that agree entry by entry give the same value. -/
theorem kern_of_rows {n k n' k' : ℕ} (a : (⟨2, ![n, 512]⟩ : Shape).Idx → EReal) (b : (⟨2, ![k, 512]⟩ : Shape).Idx → EReal)
    (A : (⟨2, ![n', 512]⟩ : Shape).Idx → EReal) (B : (⟨2, ![k', 512]⟩ : Shape).Idx → EReal)
    (i : Fin n) (j : Fin k) (i' : Fin n') (j' : Fin k')
    (ha : ∀ d, a (ix2 i d) = A (ix2 i' d)) (hb : ∀ d, b (ix2 j d) = B (ix2 j' d)) : kern a b i j = kern A B i' j' := by
  unfold kern sqNorm inner
  simp only [ha, hb]

/-- The mix over a tile: when row i of the tile a is row i' of A, and the tiles b, w hold the rows g j of B, W, the tile's mix
    is the sum over the tile of the whole arrays' terms at the rows g j. -/
theorem mix_of_rows {n k n' k' : ℕ} (a : (⟨2, ![n, 512]⟩ : Shape).Idx → EReal) (b : (⟨2, ![k, 512]⟩ : Shape).Idx → EReal)
    (w : (⟨2, ![k, 128]⟩ : Shape).Idx → EReal)
    (A : (⟨2, ![n', 512]⟩ : Shape).Idx → EReal) (B : (⟨2, ![k', 512]⟩ : Shape).Idx → EReal) (W : (⟨2, ![k', 128]⟩ : Shape).Idx → EReal)
    (i : Fin n) (i' : Fin n') (g : Fin k → Fin k') (o : Fin 128)
    (ha : ∀ d, a (ix2 i d) = A (ix2 i' d)) (hb : ∀ j d, b (ix2 j d) = B (ix2 (g j) d)) (hw : ∀ j, w (ix2 j o) = W (ix2 (g j) o)) :
    mix a b w i o = ∑ j : Fin k, kern A B i' (g j) * W (ix2 (g j) o) := by
  unfold mix
  exact Finset.sum_congr rfl fun j _ => by rw [kern_of_rows a b A B i j i' (g j) ha (hb j), hw j]

/-- A sum over 8 · 512 indices, tile by tile: the sum over tile s runs over the indices 512 s + j. -/
theorem sum_tiles (f : Fin 4096 → EReal) :
    ∑ s ∈ Finset.range 8, (if h : s < 8 then ∑ j : Fin 512, f ⟨512 * s + j.val, by have := j.isLt; omega⟩ else 0)
      = ∑ j : Fin 4096, f j := by
  rw [← Fin.sum_univ_eq_sum_range (fun s => if h : s < 8 then ∑ j : Fin 512, f ⟨512 * s + j.val, by have := j.isLt; omega⟩ else 0) 8]
  have e : ∀ s : Fin 8, (if h : s.val < 8 then ∑ j : Fin 512, f ⟨512 * s.val + j.val, by have := j.isLt; omega⟩ else 0)
      = ∑ j : Fin 512, f (finProdFinEquiv (s, j)) := by
    intro s
    rw [dif_pos s.isLt]
    refine Finset.sum_congr rfl fun j _ => congrArg f (Fin.ext ?_)
    show 512 * s.val + j.val = j.val + 512 * s.val
    omega
  rw [Finset.sum_congr rfl fun s _ => e s, ← Fintype.sum_prod_type (f := fun p : Fin 8 × Fin 512 => f (finProdFinEquiv p))]
  exact Equiv.sum_comp (finProdFinEquiv (m := 8) (n := 512)) f

end Cert.Rbf

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.TileValue.lean ====
/-
  The body's three payloads read at one element, on the extended reals.

  The accumulation payload takes a 1024-row tile x of the rows, a 512-row tile c of the centers, the matching 512-row
  tile w of the weights and the accumulator, and returns, at (r, o),

      acc[r, o] + Σ_{j < 512} exp(β · ((‖x_r‖² + ‖c_j‖²) − 2 · ⟨x_r, c_j⟩)) · w[j, o].

  Reading it off the printed operations: the two lane sums are sums over a row; the casts to a column [1024,1] and to a
  row [1,512] and their broadcasts to [1024,512] pick the row's, respectively the column's, entry; the product
  x · cᵀ into a zero accumulator is, at (r, j), the sum over the 512 coordinates of x[r, d] · c[j, d] (the transpose
  swaps the two coordinates of c); the narrowing to bf16 before each matrix product is the identity on the extended
  reals; and the second product into a zero accumulator is the sum over the tile's 512 centers. The zero payload is 0
  everywhere, and the output payload adds the bias entry of the column to the finished accumulator.
-/
import proofs.«109335_j14542759264629_1_alg».proof.Proof.Gen.KernelIdeal.Skeleton
import proofs.«109335_j14542759264629_1_alg».proof.Proof.RbfSpec
import proofs.«109335_j14542759264629_1_alg».proof.Proof.LibKeepdims
import Idealize.ShloMosaic.Lib.ValueLayout
import Idealize.ShloMosaic.Lib.Pipeline.Value
import Idealize.ShloMosaic.PureOps.Ideal.Laws

noncomputable section
open Idealize.ShloMosaic Idealize.ShloMosaic.ValueIdx

namespace Cert.KernelIdeal.TileValue
open Cert.KernelIdeal Cert.KernelIdeal.Gen

/-! ## The two matrix products at an index

Each has one contracted axis of extent 512: the operand indices at output index (r, o) and contraction index k are
(r, k) and (k, o). -/

theorem cross_lhs0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem cross_lhs1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem cross_rhs0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem cross_rhs1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The [1024,512] × [512,512] product into a zero accumulator, at (r, c): the sum over the 512 shared indices. -/
theorem matmul_cross_apply (a : FVec Ideal S1024x512 .bf16) (b : FVec Ideal S512x512 .bf16) (r : Fin 1024) (o : Fin 512) :
    matmul dot_S1024x512_S512x512_S1024x512_1_0_0_1_n_n none a b (constant (F := Ideal) S1024x512 .f32 0x00000000#32) (ix2 r o)
      = ∑ j : Fin 512, a (ix2 r j) * b (ix2 j o) := by
  refine (Ideal.matmul_constant_zero_apply _ none a b (ix2 r o)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r o) ((contrEquiv1 dot_S1024x512_S512x512_S1024x512_1_0_0_1_n_n 512 rfl rfl).symm k) = ix2 r k := funext fun ax => Fin.ext (by
    match ax with
    | ⟨0, _⟩ => exact cross_lhs0 _ _
    | ⟨1, _⟩ => exact (cross_lhs1 _ _).trans hk)
  have er : dot_S1024x512_S512x512_S1024x512_1_0_0_1_n_n.rhsIdx (ix2 r o) ((contrEquiv1 dot_S1024x512_S512x512_S1024x512_1_0_0_1_n_n 512 rfl rfl).symm k) = ix2 k o := funext fun ax => Fin.ext (by
    match ax with
    | ⟨0, _⟩ => exact (cross_rhs0 _ _).trans hk
    | ⟨1, _⟩ => exact cross_rhs1 _ _)
  rw [el, er]

theorem dense_lhs0 (i : S1024x128.Idx) (q : dot_S1024x512_S512x128_S1024x128_1_0_0_1_n_n.contr.Idx) : (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem dense_lhs1 (i : S1024x128.Idx) (q : dot_S1024x512_S512x128_S1024x128_1_0_0_1_n_n.contr.Idx) : (dot_S1024x512_S512x128_S1024x128_1_0_0_1_n_n.lhsIdx i q 1).val = (q ⟨0, by decide⟩).val :=
  dot_S1024x512_S512x128_S1024x128_1_0_0_1_n_n.lhsIdx_val_of_single rfl i q
theorem dense_rhs0 (i : S1024x128.Idx) (q : dot_S1024x512_S512x128_S1024x128_1_0_0_1_n_n.contr.Idx) : (dot_S1024x512_S512x128_S1024x128_1_0_0_1_n_n.rhsIdx i q 0).val = (q ⟨0, by decide⟩).val :=
  dot_S1024x512_S512x128_S1024x128_1_0_0_1_n_n.rhsIdx_val_of_single rfl i q
theorem dense_rhs1 (i : S1024x128.Idx) (q : dot_S1024x512_S512x128_S1024x128_1_0_0_1_n_n.contr.Idx) : (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- The [1024,512] × [512,128] product into a zero accumulator, at (r, o): the sum over the 512 shared indices. -/
theorem matmul_dense_apply (a : FVec Ideal S1024x512 .bf16) (b : FVec Ideal S512x128 .bf16) (r : Fin 1024) (o : Fin 128) :
    matmul dot_S1024x512_S512x128_S1024x128_1_0_0_1_n_n none a b (constant (F := Ideal) S1024x128 .f32 0x00000000#32) (ix2 r o)
      = ∑ j : Fin 512, a (ix2 r j) * b (ix2 j o) := by
  refine (Ideal.matmul_constant_zero_apply _ none a b (ix2 r o)).trans ?_
  rw [← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 r o) ((contrEquiv1 dot_S1024x512_S512x128_S1024x128_1_0_0_1_n_n 512 rfl rfl).symm k) = ix2 r k := funext fun ax => Fin.ext (by
    match ax with
    | ⟨0, _⟩ => exact dense_lhs0 _ _
    | ⟨1, _⟩ => exact (dense_lhs1 _ _).trans hk)
  have er : dot_S1024x512_S512x128_S1024x128_1_0_0_1_n_n.rhsIdx (ix2 r o) ((contrEquiv1 dot_S1024x512_S512x128_S1024x128_1_0_0_1_n_n 512 rfl rfl).symm k) = ix2 k o := funext fun ax => Fin.ext (by
    match ax with
    | ⟨0, _⟩ => exact (dense_rhs0 _ _).trans hk
    | ⟨1, _⟩ => exact dense_rhs1 _ _)
  rw [el, er]

/-! ## The payloads -/

/-- The reset stores zero everywhere. -/
theorem zero_apply (j : S1024x128.Idx) : k0_pay2 (F := Ideal) j = 0 := by
  unfold k0_pay2
  rw [shapeCast_self]
  exact Ideal.ofBits_zero_f32

/-- THE ACCUMULATION at (r, o): what the accumulator held there plus the tile's 512 kernel values against the weights. -/
theorem step_apply (x0 : Vec Ideal S1024x512 .f32) (x1 : Vec Ideal S512x512 .f32) (x2 : Vec Ideal S512x128 .f32) (acc : Vec Ideal S1024x128 .f32)
    (r : Fin 1024) (o : Fin 128) :
    k0_pay3 x0 x1 x2 acc (ix2 r o) = acc (ix2 r o) + Cert.Rbf.mix x0 x1 x2 r o := by
  unfold k0_pay3
  dsimp only
  rw [shapeCast_self]
  refine congrArg (acc (ix2 r o) + ·) ?_
  refine (matmul_dense_apply _ _ r o).trans ?_
  unfold Cert.Rbf.mix
  refine Finset.sum_congr rfl fun j _ => ?_
  refine congrArg (· * x2 (ix2 j o)) ?_
  unfold Cert.Rbf.kern
  refine congrArg Ideal.exp (congrArg (Cert.Rbf.beta * ·) ?_)
  refine congrArg₂ (· - ·) (congrArg₂ (· + ·) ?_ ?_) (congrArg (Cert.Rbf.two * ·) ?_)
  · -- ‖x_r‖², kept as a column and broadcast along the row
    refine (broadcastTo_a1_ab_apply _ _ r j).trans ?_
    refine (shapeCast_a_a1_apply _ _ r 0).trans ?_
    refine (multiReduction_add_row (mulf x0 x0) _ _ _ _ r).trans ?_
    rfl
  · -- ‖c_j‖², laid out as a row and broadcast down the column
    refine (broadcastTo_1b_ab_apply _ _ r j).trans ?_
    refine (shapeCast_a_1a_apply _ _ 0 j).trans ?_
    refine (multiReduction_add_row (mulf x1 x1) _ _ _ _ j).trans ?_
    rfl
  · -- ⟨x_r, c_j⟩: x · cᵀ at (r, j)
    refine (matmul_cross_apply _ _ r j).trans ?_
    unfold Cert.Rbf.inner
    refine Finset.sum_congr rfl fun d _ => ?_
    refine congrArg (x0 (ix2 r d) * ·) ?_
    exact transpose_ix2_apply _ _ d j

/-- THE OUTPUT at (r, o): the finished accumulator there plus the bias of column o. -/
theorem bias_apply (v : Vec Ideal S1024x128 .f32) (b : Vec Ideal S128 .f32) (r : Fin 1024) (o : Fin 128) :
    k0_pay1 v b (ix2 r o) = v (ix2 r o) + b (ix1 o) := by
  unfold k0_pay1
  refine congrArg (v (ix2 r o) + ·) ?_
  refine (broadcastTo_1b_ab_apply _ _ r o).trans ?_
  exact shapeCast_a_1a_apply _ _ 0 o

end Cert.KernelIdeal.TileValue
end
-- ==== Proof.BlockReads.lean ====
/-
  Which part of each argument a grid point sees.

  Point t of the 16 × 8 grid is (t / 8, t % 8): the row tile and the center tile. The block index maps say that at
  point t the rows window holds rows 1024·(t/8) … of x, the centers and weights windows hold rows 512·(t%8) … of the
  centers and of W, the bias window holds the whole bias, and the output window is row block t/8 of the result. The
  index maps are decided once over the 128 points; each block read is then one equation between an element of the
  block and an element of the whole array, for any float instance.
-/
import proofs.«109335_j14542759264629_1_alg».proof.Proof.Gen.KernelIdeal.Frame
import Idealize.ShloMosaic.Lib.Pipeline.Value
import Idealize.ShloMosaic.Lib.ValueIdx

noncomputable section
open Idealize.ShloMosaic Idealize.ShloMosaic.TcCoe Idealize.SL.Sem Idealize.ShloMosaic.ValueIdx

namespace Cert.KernelIdeal.BlockReads
open Cert.KernelIdeal Cert.KernelIdeal.Gen
variable {F : FTy → Type} [FloatOps F]
variable (m : (ℓ : Loc nD τ sig) → Buf (Elt F) ℓ)

/-- The block index of every window at every point, from the point's number. -/
theorem block_indices : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 1) = 0
    ∧ win0_4.index t (0 : Fin 2) = t.val / 8 ∧ win0_4.index t (1 : Fin 2) = 0 :=
  (by decide +kernel : ∀ t : Fin grid0.N, _)

/-- Row r of the rows block at point t is row 1024·(t/8) + r of x. -/
theorem rows_block (c : Dev nD) (t : Fin cfg0.N) (r : Fin 1024) (d : Fin 512) (i : Fin 16384)
    (hi : i.val = 1024 * (t.val / 8) + r.val) :
    (iblk m c 0 t : Vec F S1024x512 .f32) (ix2 r d) = m ((c : Thread nD τ).loc main_arg0) (ix2 i d) := by
  unfold iblk
  rw [View.read_apply]
  show V m c main_arg0 _ = m (c.tc.loc main_arg0) _
  unfold V
  refine congrArg _ (funext fun a => Fin.ext ?_)
  match a with
  | ⟨0, _⟩ => show win0_0.index t (0 : Fin 2) * 1024 + 1 * r.val = i.val; rw [(block_indices t).1, hi]; omega
  | ⟨1, _⟩ => show win0_0.index t (1 : Fin 2) * 512 + 1 * d.val = d.val; rw [(block_indices t).2.1]; omega

/-- Row j of the centers block at point t is row 512·(t%8) + j of the centers. -/
theorem centers_block (c : Dev nD) (t : Fin cfg0.N) (j : Fin 512) (d : Fin 512) (k : Fin 4096)
    (hk : k.val = 512 * (t.val % 8) + j.val) :
    (iblk m c 1 t : Vec F S512x512 .f32) (ix2 j d) = m ((c : Thread nD τ).loc main_arg1) (ix2 k d) := by
  unfold iblk
  rw [View.read_apply]
  show V m c main_arg1 _ = m (c.tc.loc main_arg1) _
  unfold V
  refine congrArg _ (funext fun a => Fin.ext ?_)
  match a with
  | ⟨0, _⟩ => show win0_1.index t (0 : Fin 2) * 512 + 1 * j.val = k.val; rw [(block_indices t).2.2.1, hk]; omega
  | ⟨1, _⟩ => show win0_1.index t (1 : Fin 2) * 512 + 1 * d.val = d.val; rw [(block_indices t).2.2.2.1]; omega

/-- Row j of the weights block at point t is row 512·(t%8) + j of W. -/
theorem weights_block (c : Dev nD) (t : Fin cfg0.N) (j : Fin 512) (o : Fin 128) (k : Fin 4096)
    (hk : k.val = 512 * (t.val % 8) + j.val) :
    (iblk m c 2 t : Vec F S512x128 .f32) (ix2 j o) = m ((c : Thread nD τ).loc main_arg2) (ix2 k o) := by
  unfold iblk
  rw [View.read_apply]
  show V m c main_arg2 _ = m (c.tc.loc main_arg2) _
  unfold V
  refine congrArg _ (funext fun a => Fin.ext ?_)
  match a with
  | ⟨0, _⟩ => show win0_2.index t (0 : Fin 2) * 512 + 1 * j.val = k.val; rw [(block_indices t).2.2.2.2.1, hk]; omega
  | ⟨1, _⟩ => show win0_2.index t (1 : Fin 2) * 128 + 1 * o.val = o.val; rw [(block_indices t).2.2.2.2.2.1]; omega

/-- The bias block is the bias, at every point. -/
theorem bias_block (c : Dev nD) (t : Fin cfg0.N) (o : Fin 128) :
    (iblk m c 3 t : Vec F S128 .f32) (ix1 o) = m ((c : Thread nD τ).loc main_arg3) (ix1 o) := by
  unfold iblk
  rw [View.read_apply]
  show V m c main_arg3 _ = m (c.tc.loc main_arg3) _
  unfold V
  refine congrArg _ (funext fun a => Fin.ext ?_)
  match a with
  | ⟨0, _⟩ => show win0_3.index t (0 : Fin 1) * 128 + 1 * o.val = o.val; rw [(block_indices t).2.2.2.2.2.2.1]; omega

end Cert.KernelIdeal.BlockReads
end
-- ==== Proof.AccumulatorFold.lean ====
/-
  The accumulator across the eight center tiles of a row block, on the extended reals.

  Along the grid's second axis the accumulator is zeroed at the first tile and then receives, tile by tile, the tile's
  contribution  Σ_{j < 512} kern(x_r, c_{512 s + j}) · W[512 s + j, o].  So after tile s it holds
  0 + (contribution of tile 0) + … + (contribution of tile s), and after the last tile the sum over all 4096 centers:
  a sum over 4096 = 8 · 512 indices taken tile by tile. Only associativity and commutativity of + on the extended
  reals are used, so no input needs to be finite here.
-/
import proofs.«109335_j14542759264629_1_alg».proof.Proof.Gen.KernelIdeal.Value
import proofs.«109335_j14542759264629_1_alg».proof.Proof.PointLeaves
import proofs.«109335_j14542759264629_1_alg».proof.Proof.TileValue
import proofs.«109335_j14542759264629_1_alg».proof.Proof.BlockReads
import proofs.«109335_j14542759264629_1_alg».proof.Proof.RbfSpec

noncomputable section
open Idealize.ShloMosaic Idealize.ShloMosaic.TcCoe Idealize.SL.Sem Idealize.ShloMosaic.ValueIdx

namespace Cert.KernelIdeal.AccumulatorFold
open Cert.KernelIdeal Cert.KernelIdeal.Gen
variable (m : (ℓ : Loc nD τ sig) → Buf (Elt Ideal) ℓ)

/-- WHAT POINT n ADDS to the accumulator, at (r, o): the mix of its rows tile against its centers and weights tiles
    (zero past the grid, where no point is). -/
def addend (c : Dev nD) (n : ℕ) : S1024x128.Idx → EReal := fun j =>
  if h : n < cfg0.N then
    Cert.Rbf.mix (n := 1024) (k := 512) (iblk m c 0 ⟨n, h⟩ : Vec Ideal S1024x512 .f32) (iblk m c 1 ⟨n, h⟩ : Vec Ideal S512x512 .f32)
      (iblk m c 2 ⟨n, h⟩ : Vec Ideal S512x128 .f32) (j 0) (j 1)
  else 0

/-- At the first tile of a row block the accumulator becomes 0 plus that point's addend. -/
theorem reset_apply (c : Dev nD) (n : ℕ) (hb : n < cfg0.N) (h0 : n % 8 = 0) (i : S1024x128.Idx) :
    Value.scAt0_0 m c n hb (VS0_0.read (Elt Ideal) VS0_0.junk) i = 0 + addend m c n i := by
  obtain ⟨r, o, rfl⟩ : ∃ (r : Fin 1024) (o : Fin 128), i = ix2 r o := ⟨i 0, i 1, eq_ix2 i⟩
  have h1 : ¬n % 8 = 7 := by omega
  unfold Value.scAt0_0
  rw [dif_pos h0, dif_neg h1]
  rw [PointLeaves.acc_first]
  refine (TileValue.step_apply _ _ _ _ r o).trans ?_
  rw [TileValue.zero_apply]
  unfold addend
  rw [dif_pos hb]

/-- At every other tile the point's addend is added to what the accumulator held. -/
theorem step_apply (c : Dev nD) (n : ℕ) (hb : n < cfg0.N) (h0 : ¬n % 8 = 0) (acc : Vec Ideal S1024x128 .f32) (i : S1024x128.Idx) :
    Value.scAt0_0 m c n hb acc i = acc i + addend m c n i := by
  obtain ⟨r, o, rfl⟩ : ∃ (r : Fin 1024) (o : Fin 128), i = ix2 r o := ⟨i 0, i 1, eq_ix2 i⟩
  unfold Value.scAt0_0
  rw [dif_neg h0]
  by_cases h1 : n % 8 = 7
  · rw [dif_pos h1, PointLeaves.acc_last]
    refine (TileValue.step_apply _ _ _ _ r o).trans ?_
    unfold addend
    rw [dif_pos hb]
  · rw [dif_neg h1, PointLeaves.acc_middle]
    refine (TileValue.step_apply _ _ _ _ r o).trans ?_
    unfold addend
    rw [dif_pos hb]

/-- THE ACCUMULATOR AFTER POINT t: zero plus the addends of the points of t's row block up to t, in order. -/
theorem acc_after (c : Dev nD) (t : Fin cfg0.N) (i : S1024x128.Idx) :
    (outsAt0 m c t.val t.isLt).2 i = 0 + ∑ s ∈ Finset.range (t.val % 8 + 1), addend m c (8 * (t.val / 8) + s) i := by
  rw [Value.soutsAt0_0_eq m c t]
  exact Pipeline.accAt_add_apply (ι := S1024x128.Idx) (β := EReal)
    (fun n h => Value.scAt0_0 m c n h (VS0_0.read (Elt Ideal) VS0_0.junk)) (Value.scAt0_0 m c) (fun _ => 0) (addend m c)
    (8 * (t.val / 8)) 7
    (fun h i => reset_apply m c _ h (by omega) i)
    (fun n h acc i hlt hle => step_apply m c n h (by omega) acc i)
    (t.val % 8) (by omega) _ i

/-- At a last tile, the accumulation payload over what the point before left IS the accumulator after the point. -/
theorem acc_at_last (c : Dev nD) (t : Fin cfg0.N) (h0 : ¬t.val % 8 = 0) (h7 : t.val % 8 = 7) :
    k0_pay3 (iblk m c 0 t) (iblk m c 1 t) (iblk m c 2 t) (outsAt0 m c (t.val - 1) (Nat.lt_of_le_of_lt (Nat.sub_le _ _) t.isLt)).2
      = (outsAt0 m c t.val t.isLt).2 := by
  rw [outsAt0_C m c t h0 h7]
  dsimp only
  rw [PointLeaves.acc_last]

/-- The addend of tile s of row block q, at (r, o), in the whole arrays: the terms of the centers 512 s … 512 s + 511
    for row 1024 q + r of x. -/
theorem addend_eq (c : Dev nD) (q s : ℕ) (hq : q < 16) (hs : s < 8) (r : Fin 1024) (o : Fin 128) (i : Fin 16384)
    (hi : i.val = 1024 * q + r.val) :
    addend m c (8 * q + s) (ix2 r o)
      = ∑ j : Fin 512, Cert.Rbf.kern (m ((c : Thread nD τ).loc main_arg0)) (m ((c : Thread nD τ).loc main_arg1)) i
            ⟨512 * s + j.val, by have := j.isLt; omega⟩
          * m ((c : Thread nD τ).loc main_arg2) (ix2 (⟨512 * s + j.val, by have := j.isLt; omega⟩ : Fin 4096) o) := by
  have hN : cfg0.N = 128 := N_0
  have hb : 8 * q + s < cfg0.N := by omega
  unfold addend
  rw [dif_pos hb]
  exact Cert.Rbf.mix_of_rows _ _ _ _ _ _ r i (fun j => ⟨512 * s + j.val, by have := j.isLt; omega⟩) o
    (fun d => BlockReads.rows_block m c ⟨8 * q + s, hb⟩ r d i (by show i.val = 1024 * ((8 * q + s) / 8) + r.val; omega))
    (fun j d => BlockReads.centers_block m c ⟨8 * q + s, hb⟩ j d _ (by show 512 * s + j.val = 512 * ((8 * q + s) % 8) + j.val; omega))
    (fun j => BlockReads.weights_block m c ⟨8 * q + s, hb⟩ j o _ (by show 512 * s + j.val = 512 * ((8 * q + s) % 8) + j.val; omega))

/-- AFTER THE LAST TILE of a row block the accumulator holds, at (r, o), the mix of row 1024·(t/8) + r of x against ALL
    4096 centers: the eight tiles' sums are the whole sum. -/
theorem row_block_total (c : Dev nD) (t : Fin cfg0.N) (h7 : t.val % 8 = 7) (r : Fin 1024) (o : Fin 128) (i : Fin 16384)
    (hi : i.val = 1024 * (t.val / 8) + r.val) :
    (outsAt0 m c t.val t.isLt).2 (ix2 r o)
      = Cert.Rbf.mix (m ((c : Thread nD τ).loc main_arg0)) (m ((c : Thread nD τ).loc main_arg1)) (m ((c : Thread nD τ).loc main_arg2)) i o := by
  have hN : cfg0.N = 128 := N_0
  have ht := t.isLt
  rw [acc_after m c t (ix2 r o), h7, zero_add]
  unfold Cert.Rbf.mix
  rw [← Cert.Rbf.sum_tiles]
  refine Finset.sum_congr rfl fun s hs => ?_
  have hs8 : s < 8 := Finset.mem_range.mp hs
  rw [dif_pos hs8]
  exact addend_eq m c (t.val / 8) s (by omega) hs8 r o i hi

end Cert.KernelIdeal.AccumulatorFold
end
-- ==== Proof.KernelValue.lean ====
/-
  The kernel's result array, as one function of its arguments, on the extended reals.

  Only the last of the eight points of a row block writes the output block back; by then the accumulator holds the sum
  over all 4096 centers for each of the block's 1024 rows, and the block written is that sum plus the bias. The sixteen
  row blocks tile the [16384,128] result, so the array ends holding the specification's function at every index.
-/
import proofs.«109335_j14542759264629_1_alg».proof.Proof.AccumulatorFold

noncomputable section
open Idealize.ShloMosaic Idealize.ShloMosaic.TcCoe Idealize.SL.Sem Idealize.ShloMosaic.ValueIdx
open Idealize.ShloMosaic.Pipeline (Dat)

namespace Cert.KernelIdeal.KernelValue
open Cert.KernelIdeal Cert.KernelIdeal.Gen
variable (m : (ℓ : Loc nD τ sig) → Buf (Elt Ideal) ℓ) (ρ : Dev nD → PrngReg)

/-- What the result array ends holding: the specification's function of the four argument arrays as launched. -/
abbrev result (c : Dev nD) : Buf (Elt Ideal) ((c : Thread nD τ).loc main_v0) :=
  Cert.Rbf.out (m ((c : Thread nD τ).loc main_arg0)) (m ((c : Thread nD τ).loc main_arg1)) (m ((c : Thread nD τ).loc main_arg2))
    (m ((c : Thread nD τ).loc main_arg3))

/-- WHAT A WRITE-BACK WRITES. The output block is written back only after the last center tile of a row block, t % 8 = 7.
    There it holds, at (r, o), the finished accumulator plus the bias: the mix of row 1024·(t/8) + r against all centers,
    plus b[o] — the specification read through the block, whose element (r, o) sits at (1024·(t/8) + r, o) of the array. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  have hN : cfg0.N = 128 := N_0
  have ht := t.isLt
  rw [Value.flushed4_C m c t h0 h7, PointLeaves.out_last, AccumulatorFold.acc_at_last m c t h0 h7]
  funext y
  obtain ⟨r, o, rfl⟩ : ∃ (r : Fin 1024) (o : Fin 128), y = ix2 r o := ⟨y 0, y 1, eq_ix2 (n0 := 1024) (n1 := 128) y⟩
  have hi : 1024 * (t.val / 8) + r.val < 16384 := by have := r.isLt; omega
  have ecut : (cfg0.win 4).xinj (grid0.coords t) (ix2 r o) = ix2 r o :=
    funext fun a => Fin.ext (by match a with | ⟨0, _⟩ => rfl | ⟨1, _⟩ => rfl)
  have eemb : ((cfg0.win 4).blk t).view.emb (ix2 r o) = ix2 (⟨1024 * (t.val / 8) + r.val, hi⟩ : Fin 16384) o :=
    funext fun a => Fin.ext (by
      match a with
      | ⟨0, _⟩ => show win0_4.index t (0 : Fin 2) * 1024 + 1 * r.val = 1024 * (t.val / 8) + r.val
                  rw [(BlockReads.block_indices t).2.2.2.2.2.2.2.1]; omega
      | ⟨1, _⟩ => show win0_4.index t (1 : Fin 2) * 128 + 1 * o.val = o.val
                  rw [(BlockReads.block_indices t).2.2.2.2.2.2.2.2]; omega)
  rw [View.read_apply, eemb]
  show k0_pay1 _ _ ((cfg0.win 4).xinj (grid0.coords t) (ix2 r o)) = _
  rw [ecut]
  refine (TileValue.bias_apply _ _ r o).trans ?_
  rw [AccumulatorFold.row_block_total m c t h7 r o ⟨1024 * (t.val / 8) + r.val, hi⟩ rfl, BlockReads.bias_block]
  rfl

/-- An index of the result lies in point t's block iff each coordinate lies in the block's range on its axis. -/
theorem mem_block (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0).slice (win0_4.rect t)).set ↔ _
  rw [View.set_slice_whole, Rect.mem_set_unit]
  exact Iff.rfl

/-- Every row i of the result is written back by the last point of its row block, point 8·(i / 1024) + 7. -/
theorem cover (i : S16384x128.Idx) : ∃ t : Fin cfg0.N, (cfg0.win 4).flush t = true ∧ i ∈ ((cfg0.win 4).blk t).view.set := by
  have hN : cfg0.N = 128 := N_0
  have hi0 : (i 0).val < 16384 := (i 0).isLt
  have hi1 : (i 1).val < 128 := (i 1).isLt
  refine ⟨⟨8 * ((i 0).val / 1024) + 7, by omega⟩, (flush0_4 _).mpr (by show (8 * ((i 0).val / 1024) + 7) % 8 = 7; omega), ?_⟩
  rw [mem_block]
  intro a
  match a with
  | ⟨0, _⟩ =>
    show win0_4.index _ (0 : Fin 2) * 1024 ≤ (i 0).val ∧ (i 0).val < win0_4.index _ (0 : Fin 2) * 1024 + 1024
    rw [(BlockReads.block_indices _).2.2.2.2.2.2.2.1]
    show (8 * ((i 0).val / 1024) + 7) / 8 * 1024 ≤ (i 0).val ∧ (i 0).val < (8 * ((i 0).val / 1024) + 7) / 8 * 1024 + 1024
    omega
  | ⟨1, _⟩ =>
    show win0_4.index _ (1 : Fin 2) * 128 ≤ (i 1).val ∧ (i 1).val < win0_4.index _ (1 : Fin 2) * 128 + 128
    rw [(BlockReads.block_indices _).2.2.2.2.2.2.2.2]
    omega

/-- So the result array ends holding the specification's function everywhere. -/
theorem final (c : Dev nD) : (dats m 0 c).arrAt 4 cfg0.N = result m c :=
  (dats m 0 c).arrAt_eq_of_cover 4 (result m c) (flushed_eq m c) cover

/-- The kernel's run, read: the result at the specification's function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue
end
-- ==== Proof.ReferenceValue.lean ====
/-
  The reference's result, read index by index on the extended reals, is the specification's function.

  jnp computes the squared distances through the identity ‖a − b‖² = ‖a‖² + ‖b‖² − 2⟨a, b⟩ with whole-array operations:
  two row sums (each a host sum from a zero initial value, which adds nothing), a matrix product against the transposed
  centers, broadcasts of the column of ‖x‖² and the row of ‖c‖², the scaling by 2.0 and by −0.35 (the same two f32
  words the kernel uses), the exponential, the product with W and the bias. Each stage read at one index names one
  index of its operands, so the chain collapses to the formula of the specification.
-/
import proofs.«109335_j14542759264629_1_alg».proof.Proof.Gen.ReferenceIdeal.Read
import proofs.«109335_j14542759264629_1_alg».proof.Proof.RbfSpec

noncomputable section
open Idealize.ShloMosaic Idealize.ShloMosaic.ValueIdx

namespace Cert.ReferenceIdeal.RefValue
open Cert.ReferenceIdeal Cert.ReferenceIdeal.Gen Cert.ReferenceIdeal.Read

/-- ‖x_p‖² on the host: the row sum of x·x from a zero initial value, kept as a column and broadcast along the row. -/
theorem rowsq_apply (x0 : (⟨S16384x512, .f32⟩ : BufTy).Contents (Elt Ideal)) (p : Fin 16384) (k : Fin 4096) :
    val_main_v8 (F := Ideal) x0 (ix2 p k) = Cert.Rbf.sqNorm x0 p := by
  rw [val_main_v8_apply, val_main_v2_apply, val_main_v1_apply, val_main_cst_apply]
  show Ideal.ofBits .f32 0x00000000#32 + _ = _
  rw [Ideal.ofBits_zero_f32, zero_add]
  unfold Cert.Rbf.sqNorm
  refine Finset.sum_congr rfl fun d _ => ?_
  have e : idx_main_v1 (idx_main_v2 (idx_main_v8 (ix2 p k))) d = ix2 p d :=
    funext fun a => Fin.ext (by match a with | ⟨0, _⟩ => rfl | ⟨1, _⟩ => rfl)
  rw [val_main_v0_apply, e]
  rfl

/-- ‖c_k‖² on the host: the row sum of c·c from zero, laid out as a row and broadcast down the column. -/
theorem censq_apply (x1 : (⟨S4096x512, .f32⟩ : BufTy).Contents (Elt Ideal)) (p : Fin 16384) (k : Fin 4096) :
    val_main_v9 (F := Ideal) x1 (ix2 p k) = Cert.Rbf.sqNorm x1 k := by
  rw [val_main_v9_apply, val_main_v7_apply, val_main_v4_apply, val_main_cst_0_apply]
  show Ideal.ofBits .f32 0x00000000#32 + _ = _
  rw [Ideal.ofBits_zero_f32, zero_add]
  unfold Cert.Rbf.sqNorm
  refine Finset.sum_congr rfl fun d _ => ?_
  have e : idx_main_v4 (idx_main_v7 (idx_main_v9 (ix2 p k))) d = ix2 k d :=
    funext fun a => Fin.ext (by match a with | ⟨0, _⟩ => rfl | ⟨1, _⟩ => rfl)
  rw [val_main_v3_apply, e]
  rfl

/-- ⟨x_p, c_k⟩ on the host: x · cᵀ at (p, k), the transpose swapping the two coordinates of the centers. -/
theorem cross_apply (x0 : (⟨S16384x512, .f32⟩ : BufTy).Contents (Elt Ideal)) (x1 : (⟨S4096x512, .f32⟩ : BufTy).Contents (Elt Ideal))
    (p : Fin 16384) (k : Fin 4096) :
    val_main_v6 (F := Ideal) x0 x1 (ix2 p k) = Cert.Rbf.inner x0 x1 p k := by
  rw [val_main_v6_apply]
  unfold Cert.Rbf.inner
  refine Finset.sum_congr rfl fun d _ => ?_
  have el : lidx_main_v6 (ix2 p k) d = ix2 p d :=
    funext fun a => Fin.ext (by match a with | ⟨0, _⟩ => rfl | ⟨1, _⟩ => rfl)
  have er : idx_main_v5 (ridx_main_v6 (ix2 p k) d) = ix2 k d :=
    funext fun a => Fin.ext (by match a with | ⟨0, _⟩ => rfl | ⟨1, _⟩ => rfl)
  rw [val_main_v5_apply, el, er]

/-- The host's exponential of β · ((‖x_p‖² + ‖c_k‖²) − 2 · ⟨x_p, c_k⟩) is the specification's kernel value. -/
theorem kern_apply (x0 : (⟨S16384x512, .f32⟩ : BufTy).Contents (Elt Ideal)) (x1 : (⟨S4096x512, .f32⟩ : BufTy).Contents (Elt Ideal))
    (p : Fin 16384) (k : Fin 4096) :
    val_main_v16 (F := Ideal) x0 x1 (ix2 p k) = Cert.Rbf.kern x0 x1 p k := by
  rw [val_main_v16_apply, val_main_v15_apply, val_main_v14_apply, val_main_cst_2_apply, val_main_v13_apply, val_main_v10_apply,
    val_main_v12_apply, val_main_v11_apply, val_main_cst_1_apply, rowsq_apply, censq_apply, cross_apply]
  rfl

/-- THE REFERENCE IS THE SPECIFICATION: the second product sums the kernel values against W over all 4096 centers,
    and the bias row is broadcast over the rows and added. -/
theorem reference_eq (x0 : (⟨S16384x512, .f32⟩ : BufTy).Contents (Elt Ideal)) (x1 : (⟨S4096x512, .f32⟩ : BufTy).Contents (Elt Ideal))
    (x2 : (⟨S4096x128, .f32⟩ : BufTy).Contents (Elt Ideal)) (x3 : (⟨S128, .f32⟩ : BufTy).Contents (Elt Ideal)) :
    val_main_v20 (F := Ideal) x0 x1 x2 x3 = Cert.Rbf.out x0 x1 x2 x3 := by
  funext i
  obtain ⟨p, o, rfl⟩ : ∃ (p : Fin 16384) (o : Fin 128), i = ix2 p o := ⟨i 0, i 1, eq_ix2 i⟩
  rw [val_main_v20_apply, val_main_v17_apply, val_main_v19_apply, val_main_v18_apply]
  unfold Cert.Rbf.out Cert.Rbf.mix
  refine congrArg₂ (· + ·) (Finset.sum_congr rfl fun k _ => ?_) ?_
  · have el : lidx_main_v17 (ix2 p o) k = ix2 p k :=
      funext fun a => Fin.ext (by match a with | ⟨0, _⟩ => rfl | ⟨1, _⟩ => rfl)
    have er : ridx_main_v17 (ix2 p o) k = ix2 k o :=
      funext fun a => Fin.ext (by match a with | ⟨0, _⟩ => rfl | ⟨1, _⟩ => rfl)
    rw [el, er, kern_apply]
  · exact congrArg x3 (funext fun a => Fin.ext (by match a with | ⟨0, _⟩ => rfl))

end Cert.ReferenceIdeal.RefValue
end
-- ==== Proof.lean ====
/- The certificate of the fused radial-basis dense layer against its jnp reference.

   The kernel tiles x into sixteen 1024-row blocks and the centers (with the matching rows of W) into eight 512-row tiles;
   for each row block it zeroes an accumulator, adds per center tile  Σ_j exp(β((‖x_r‖² + ‖c_j‖²) − 2⟨x_r, c_j⟩)) · W[j, o]
   over the tile's 512 centers, and after the eighth tile writes accumulator + bias to the output block. The reference
   evaluates the same expression with whole-array operations and one sum over all 4096 centers. On the extended reals the
   narrowing to bf16 in front of the matrix products is the identity and the two are equal because a sum over 4096 = 8 · 512
   indices is the sum of the eight tiles' sums: associativity and commutativity of + only, so the finiteness of the
   inputs is never used. The three frames are the generated ones (the reference's is its generated run with the result
   dropped), and the ideal pass rewrote nothing, so there is nothing to preserve. -/
import proofs.«109335_j14542759264629_1_alg».proof.Defs
import proofs.«109335_j14542759264629_1_alg».proof.Proof.Gen.Kernel
import proofs.«109335_j14542759264629_1_alg».proof.Proof.Gen.Kernel.Skeleton
import proofs.«109335_j14542759264629_1_alg».proof.Proof.Gen.Kernel.Launch
import proofs.«109335_j14542759264629_1_alg».proof.Proof.Gen.Kernel.Points
import proofs.«109335_j14542759264629_1_alg».proof.Proof.Gen.Kernel.Frame
import proofs.«109335_j14542759264629_1_alg».proof.Proof.Gen.KernelIdeal
import proofs.«109335_j14542759264629_1_alg».proof.Proof.Gen.KernelIdeal.Skeleton
import proofs.«109335_j14542759264629_1_alg».proof.Proof.Gen.KernelIdeal.Launch
import proofs.«109335_j14542759264629_1_alg».proof.Proof.Gen.KernelIdeal.Points
import proofs.«109335_j14542759264629_1_alg».proof.Proof.Gen.KernelIdeal.Frame
import proofs.«109335_j14542759264629_1_alg».proof.Proof.Gen.ReferenceIdeal
import proofs.«109335_j14542759264629_1_alg».proof.Proof.Gen.KernelIdeal.Value
import proofs.«109335_j14542759264629_1_alg».proof.Proof.Gen.ReferenceIdeal.Run
import proofs.«109335_j14542759264629_1_alg».proof.Proof.Gen.ReferenceIdeal.Read
import proofs.«109335_j14542759264629_1_alg».proof.Proof.KernelValue
import proofs.«109335_j14542759264629_1_alg».proof.Proof.ReferenceValue
import proofs.«109335_j14542759264629_1_alg».proof.Proof.Gen.Pre_finite_inputs
import Idealize.ShloMosaic.Adequacy
import Idealize.ShloMosaic.Init

noncomputable section

namespace Cert.Proof

open Idealize.ShloMosaic Idealize.SL.Sem Cert.Kernel

/-- Both programs end with the specification's function of arguments that agree: the kernel by its tiled accumulation
    (KernelValue.run), the reference by reading its operations index by index (ReferenceValue.reference_eq). -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
